-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x257 : Shape := ⟨3, ![8, 2048, 257]⟩
abbrev S8x2048x256 : Shape := ⟨3, ![8, 2048, 256]⟩
abbrev S8x2048x2048 : Shape := ⟨3, ![8, 2048, 2048]⟩
abbrev S256x64 : Shape := ⟨2, ![256, 64]⟩
abbrev S257x257 : Shape := ⟨2, ![257, 257]⟩
abbrev S_ : Shape := ⟨0, ![]⟩

class Facts : Prop where
  bcast_S_S8x2048x257 : S_.BroadcastsInDim S8x2048x257 (![] : Fin 0 → Fin S8x2048x257.rank)
  reducesTo_S8x2048x257_S_d0_1_2 : S8x2048x257.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x64 : S_.BroadcastsInDim S256x64 (![] : Fin 0 → Fin S256x64.rank)
  reducesTo_S256x64_S_d0_1 : S256x64.ReducesTo [0, 1] S_
  bcast_S_S257x257 : S_.BroadcastsInDim S257x257 (![] : Fin 0 → Fin S257x257.rank)
  reducesTo_S257x257_S_d0_1 : S257x257.ReducesTo [0, 1] S_

variable [Facts]

def fn_part1 {F : FTy → Type} [FloatOps F] (main_arg4 : FVec F S256x64 .f32) (main_arg5 : FVec F S257x257 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S257x257 .f32 := Host.absf main_arg5
  let main_cst_8 : FVec F S_ .f32 := constant S_ .f32 0x7F800000#32
  let main_v25 : FVec F S257x257 .f32 := broadcastInDim S257x257 ![] bcast_S_S257x257 main_cst_8
  let main_v26 : IVec S257x257 1 := cmpf .olt main_v24 main_v25
  let main_c_9 : IVec S_ 1 := constantI S_ 1 1#1
  let main_v27 : IVec S_ 1 := (fun x v => Host.reduce IntOp.andi x v reducesTo_S257x257_S_d0_1 h_S_) main_v26 main_c_9
  let main_v28 : IVec S_ 1 := andi main_v23 main_v27
  main_v28

def fn {F : FTy → Type} [FloatOps F] (main_arg0 : FVec F S8x2048x257 .f32) (main_arg1 : FVec F S8x2048x256 .f32) (main_arg2 : FVec F S8x2048x2048 .f32) (main_arg3 : FVec F S256x64 .f32) (main_arg4 : FVec F S256x64 .f32) (main_arg5 : FVec F S257x257 .f32) : IVec S_ 1 :=
  let main_v0 : FVec F S8x2048x257 .f32 := Host.absf main_arg0
  let main_cst : FVec F S_ .f32 := constant S_ .f32 0x7F800000#32
  let main_v1 : FVec F S8x2048x257 .f32 := broadcastInDim S8x2048x257 ![] bcast_S_S8x2048x257 main_cst
  let main_v2 : IVec S8x2048x257 1 := cmpf .olt main_v0 main_v1
  let main_c : IVec S_ 1 := constantI S_ 1 1#1
  let main_v3 : IVec S_ 1 := (fun x v => Host.reduce IntOp.andi x v reducesTo_S8x2048x257_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S8x2048x257 : Shape := ⟨3, ![8, 2048, 257]⟩
abbrev S8x2048x256 : Shape := ⟨3, ![8, 2048, 256]⟩
abbrev S8x2048x2048 : Shape := ⟨3, ![8, 2048, 2048]⟩
abbrev S256x64 : Shape := ⟨2, ![256, 64]⟩
abbrev S257x257 : Shape := ⟨2, ![257, 257]⟩
abbrev S1x256x256 : Shape := ⟨3, ![1, 256, 256]⟩
abbrev S1x2048x256 : Shape := ⟨3, ![1, 2048, 256]⟩
abbrev S1x256x2048 : Shape := ⟨3, ![1, 256, 2048]⟩
abbrev S1x2048x257 : Shape := ⟨3, ![1, 2048, 257]⟩
abbrev S1x256x257 : Shape := ⟨3, ![1, 256, 257]⟩
abbrev S256x256 : Shape := ⟨2, ![256, 256]⟩
abbrev S2048x256 : Shape := ⟨2, ![2048, 256]⟩
abbrev S2048x64 : Shape := ⟨2, ![2048, 64]⟩
abbrev S256x2048 : Shape := ⟨2, ![256, 2048]⟩
abbrev S2048x257 : Shape := ⟨2, ![2048, 257]⟩
abbrev S256x257 : Shape := ⟨2, ![256, 257]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x257, .f32⟩
  | .hbm, ⟨1, _⟩ => ⟨S8x2048x256, .f32⟩
  | .hbm, ⟨2, _⟩ => ⟨S8x2048x2048, .f32⟩
  | .hbm, ⟨3, _⟩ => ⟨S256x64, .f32⟩
  | .hbm, ⟨4, _⟩ => ⟨S256x64, .f32⟩
  | .hbm, ⟨5, _⟩ => ⟨S257x257, .f32⟩
  | .hbm, ⟨6, _⟩ => ⟨S8x2048x257, .f32⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x2048, .f32⟩
  | .local _ .vmem, ⟨5, _⟩ => ⟨S1x256x2048, .f32⟩
  | .local _ .vmem, ⟨6, _⟩ => ⟨S1x2048x257, .f32⟩
  | .local _ .vmem, ⟨7, _⟩ => ⟨S1x2048x257, .f32⟩
  | .local _ .vmem, ⟨8, _⟩ => ⟨S256x64, .f32⟩
  | .local _ .vmem, ⟨9, _⟩ => ⟨S256x64, .f32⟩
  | .local _ .vmem, ⟨10, _⟩ => ⟨S257x257, .f32⟩
  | .local _ .vmem, ⟨11, _⟩ => ⟨S1x256x257, .f32⟩
  | .local _ .vmem, ⟨12, _⟩ => ⟨S1x256x257, .f32⟩
  | _, _ => ⟨S8x2048x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x257 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S257x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x257 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x64_S256x64_0_0 : ∀ a, (![0, 0] : Fin 2 → Nat) a + S256x64.size a ≤ S256x64.size a
  h_S256x64 : 0 < S256x64.numel
  inb_S257x257_S257x257_0_0 : ∀ a, (![0, 0] : Fin 2 → Nat) a + S257x257.size a ≤ S257x257.size a
  h_S257x257 : 0 < S257x257.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x257_S1x2048x257_0_0_0 : ∀ a, (![0, 0, 0] : Fin 3 → Nat) a + S1x2048x257.size a ≤ S1x2048x257.size a
  h_S1x2048x257 : 0 < S1x2048x257.numel
  shapeCasts_S1x2048x257_S2048x257 : S1x2048x257.ShapeCasts S2048x257
  inb_S1x256x257_S1x256x257_0_0_0 : ∀ a, (![0, 0, 0] : Fin 3 → Nat) a + S1x256x257.size a ≤ S1x256x257.size a
  h_S1x256x257 : 0 < S1x256x257.numel
  shapeCasts_S1x256x257_S256x257 : S1x256x257.ShapeCasts S256x257
  shapeCasts_S256x257_S1x256x257 : S256x257.ShapeCasts S1x256x257
  dot_S256x256_S256x64_S256x64_1_0_0_1_n_n_wf : DotDims.WF S256x256 S256x64 S256x64 [1] [0] [0] [1] [] []
  dot_S2048x256_S256x64_S2048x64_1_0_0_1_n_n_wf : DotDims.WF S2048x256 S256x64 S2048x64 [1] [0] [0] [1] [] []
  dot_S256x64_S2048x64_S256x2048_1_1_0_0_n_n_wf : DotDims.WF S256x64 S2048x64 S256x2048 [1] [1] [0] [0] [] []
  dot_S256x2048_S2048x257_S256x257_1_0_0_1_n_n_wf : DotDims.WF S256x2048 S2048x257 S256x257 [1] [0] [0] [1] [] []
  dot_S256x257_S257x257_S256x257_1_0_0_1_n_n_wf : DotDims.WF S256x257 S257x257 S256x257 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x2048x256.size a
  hwx0_0 : ∀ i : grid0.Coords, EltTy.bits .f32 = 32 ∨ (Rect.block (s := S8x2048x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x257.size a ≤ S8x2048x257.size a
  hwx0_3 : ∀ i : grid0.Coords, EltTy.bits .f32 = 32 ∨ (Rect.block (s := S8x2048x257) S1x2048x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S257x257.size a ≤ S257x257.size a
  hwx0_6 : ∀ i : grid0.Coords, EltTy.bits .f32 = 32 ∨ (Rect.block (s := S257x257) S257x257.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x257.size a ≤ S8x2048x257.size a
  hwx0_7 : ∀ i : grid0.Coords, EltTy.bits .f32 = 32 ∨ (Rect.block (s := S8x2048x257) S1x256x257.size (cc0_transform_7 i) (hinb0_7 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x257_S256x257_1_0_0_1_n_n : DotDims S256x2048 S2048x257 S256x257 where
  lhsContracting := [1]
  rhsContracting := [0]
  lhsNonContracting := [0]
  rhsNonContracting := [1]
  lhsBatch := []
  rhsBatch := []
  wf := dot_S256x2048_S2048x257_S256x257_1_0_0_1_n_n_wf
def dot_S256x257_S257x257_S256x257_1_0_0_1_n_n : DotDims S256x257 S257x257 S256x257 where
  lhsContracting := [1]
  rhsContracting := [0]
  lhsNonContracting := [0]
  rhsNonContracting := [1]
  lhsBatch := []
  rhsBatch := []
  wf := dot_S256x257_S257x257_S256x257_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x2048x257.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S257x257.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256x257.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x257 : Shape := ⟨3, ![8, 2048, 257]⟩
abbrev S8x2048x256 : Shape := ⟨3, ![8, 2048, 256]⟩
abbrev S8x2048x2048 : Shape := ⟨3, ![8, 2048, 2048]⟩
abbrev S256x64 : Shape := ⟨2, ![256, 64]⟩
abbrev S257x257 : Shape := ⟨2, ![257, 257]⟩
abbrev S8x2048x64 : Shape := ⟨3, ![8, 2048, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x257, .f32⟩
  | .hbm, ⟨1, _⟩ => ⟨S8x2048x256, .f32⟩
  | .hbm, ⟨2, _⟩ => ⟨S8x2048x2048, .f32⟩
  | .hbm, ⟨3, _⟩ => ⟨S256x64, .f32⟩
  | .hbm, ⟨4, _⟩ => ⟨S256x64, .f32⟩
  | .hbm, ⟨5, _⟩ => ⟨S257x257, .f32⟩
  | .hbm, ⟨6, _⟩ => ⟨S8x2048x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x257, .f32⟩
  | .hbm, ⟨17, _⟩ => ⟨S8x2048x257, .f32⟩
  | _, _ => ⟨S8x2048x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  dot_S8x2048x256_S256x64_S8x2048x64_2_0_01_1_n_n_wf : DotDims.WF S8x2048x256 S256x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x257_S8x2048x257_2_1_1_2_0_0_wf : DotDims.WF S8x2048x2048 S8x2048x257 S8x2048x257 [2] [1] [1] [2] [0] [0]
  dot_S8x2048x257_S257x257_S8x2048x257_2_0_01_1_n_n_wf : DotDims.WF S8x2048x257 S257x257 S8x2048x257 [2] [0] [0, 1] [1] [] []

variable [Facts₀]

def dot_S8x2048x256_S256x64_S8x2048x64_2_0_01_1_n_n : DotDims S8x2048x256 S256x64 S8x2048x64 where
  lhsContracting := [2]
  rhsContracting := [0]
  lhsNonContracting := [0, 1]
  rhsNonContracting := [1]
  lhsBatch := []
  rhsBatch := []
  wf := dot_S8x2048x256_S256x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x257_S8x2048x257_2_1_1_2_0_0 : DotDims S8x2048x2048 S8x2048x257 S8x2048x257 where
  lhsContracting := [2]
  rhsContracting := [1]
  lhsNonContracting := [1]
  rhsNonContracting := [2]
  lhsBatch := [0]
  rhsBatch := [0]
  wf := dot_S8x2048x2048_S8x2048x257_S8x2048x257_2_1_1_2_0_0_wf
def dot_S8x2048x257_S257x257_S8x2048x257_2_0_01_1_n_n : DotDims S8x2048x257 S257x257 S8x2048x257 where
  lhsContracting := [2]
  rhsContracting := [0]
  lhsNonContracting := [0, 1]
  rhsNonContracting := [1]
  lhsBatch := []
  rhsBatch := []
  wf := dot_S8x2048x257_S257x257_S8x2048x257_2_0_01_1_n_n_wf

class Facts : Prop extends Facts₀ where

variable [Facts]
-- ==== Proof.LibFrameShared.lean ====
/-
  The frame run of a program with ONE kernel region whose input windows may read the same array.

  When two input windows stage blocks of one array, the array's buffer cannot be handed to each of them whole:
  its full share is divided among the windows that read it, and each window's transfers read the array at its
  own part. The run below asks the certificate for exactly that division (`hsplit`: the distinct buffers behind
  the arrays, each whole at the full share, yield every window's array at the share its proof data names), for
  the body obligation at every point, and for an invariant that is the scoped buffers no window stages; it
  concludes that every weakly fair execution terminates, faults nowhere, and leaves every window's array at
  what the write-backs of all points make of its entry contents (`Dat.arrAt … N`: for an input window, the
  entry contents themselves).
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run for windows that may share arrays. The kernel has no semaphore of its own and keeps nothing
    between points outside its staging buffers (`hΦ`: the invariant is the scoped rest); the arrays' full
    shares are divided among the windows as `hsplit` says. Every window's array ends at `Dat.arrAt w N`. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfg).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (fun r => ∀ c : Dev nD, ∀ w,
      r.2.mem (((cfg).spec w).arr.view.loc (c.tc : Thread nD τ)) = (dats p c).arrAt w (cfg).N) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr [H]
      · iempintro
      · iexact H)
    (hin := fun c => by
      rw [hΦ]
      iintro ⟨-, H⟩
      iexact H)
    (hout := fun c => by
      rw [hΦ]
      iintro H
      isplitr [H]
      · iempintro
      · iexact H)
    (QY := fun _ _ => True)
    (hY := fun c s' => by
      iintro ⟨-, -, HSI⟩
      imodintro
      isplitr [HSI]
      · ipureintro; trivial
      · iexact HSI)
    (hQ := fun s h c w => (h c).1 w)

/-- info: 'Idealize.ShloMosaic.Pipeline.θ_run_frame_shared' depends on axioms: [propext, Classical.choice, Quot.sound] -/
#guard_msgs in #print axioms θ_run_frame_shared

end Idealize.ShloMosaic.Pipeline

end
-- ==== Proof.FrameBits.lean ====
/-
  The frame of the fused attention kernel: it runs to the end, faults nowhere, and leaves its argument arrays
  as they were.

  The call hands ONE array to two input windows: the rows of the current query tile (a [1, 256, 256] block that
  moves with both grid coordinates) and all 2048 rows of the same batch element as keys (a [1, 2048, 256] block
  that moves with the batch coordinate only) are both blocks of the array of token features. Both windows only
  read it, so the array's full share is cut in two halves, one per window; every other array belongs to one
  window and is held whole. At a grid point the body loads its seven input blocks, computes the tile's result as
  one pure function of them, and stores it over the whole output block; an input buffer holds its window's block
  at every point, fetched there or not, because an unfetched window's block index has not moved.
-/
import proofs.«147705_j5583457485447_1_alg».proof.Proof.Gen.Kernel.Launch
import proofs.«147705_j5583457485447_1_alg».proof.Proof.Gen.Kernel.Skeleton
import proofs.«147705_j5583457485447_1_alg».proof.Proof.Gen.Kernel.Points
import proofs.«147705_j5583457485447_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds the window's block at every point, for any proof data whose
    array is the entry contents and whose body leaves the block in place. One statement per input window. -/
theorem before_0 (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

/-! ## The body's accesses: every load and the one store take the whole buffer -/

abbrev rq : Rect S1x256x256 := Rect.unit (s := S1x256x256) ![0, 0, 0] S1x256x256.size inb_S1x256x256_S1x256x256_0_0_0
abbrev rk : Rect S1x2048x256 := Rect.unit (s := S1x2048x256) ![0, 0, 0] S1x2048x256.size inb_S1x2048x256_S1x2048x256_0_0_0
abbrev rm : Rect S1x256x2048 := Rect.unit (s := S1x256x2048) ![0, 0, 0] S1x256x2048.size inb_S1x256x2048_S1x256x2048_0_0_0
abbrev rz : Rect S1x2048x257 := Rect.unit (s := S1x2048x257) ![0, 0, 0] S1x2048x257.size inb_S1x2048x257_S1x2048x257_0_0_0
abbrev rw64 : Rect S256x64 := Rect.unit (s := S256x64) ![0, 0] S256x64.size inb_S256x64_S256x64_0_0
abbrev rwv : Rect S257x257 := Rect.unit (s := S257x257) ![0, 0] S257x257.size inb_S257x257_S257x257_0_0
abbrev ro : Rect S1x256x257 := Rect.unit (s := S1x256x257) ![0, 0, 0] S1x256x257.size inb_S1x256x257_S1x256x257_0_0_0

/-- What the body leaves in the output window's buffer, from the seven input blocks (query rows, key rows, mask
    rows, value rows, the two projections, the output projection): its one store, over the whole buffer. -/
def outBlock (xq : Vec F S1x256x256 .f32) (xk : Vec F S1x2048x256 .f32) (xm : Vec F S1x256x2048 .f32) (xz : Vec F S1x2048x257 .f32)
    (wq wk : Vec F S256x64 .f32) (wv : Vec F S257x257 .f32) : Vec F S1x256x257 .f32 :=
  View.canon [⟨ro, k0_pay1 (k0_pay2 (View.ld xq rq) (View.ld xk rk) (View.ld wq rw64) (View.ld wk rw64) (View.ld wv rwv) (View.ld xm rm) (View.ld xz rz))⟩]

/-- The store covers the buffer. -/
theorem cover_out (p0 : Vec F S1x256x257 .f32) (y : S1x256x257.Idx) :
    ∃ pc ∈ ([⟨ro, p0⟩] : List (View.Piece (Elt F) S1x256x257 .f32)), y ∈ pc.1.set :=
  View.cover_of_tiled [⟨ro, p0⟩] S1x256x257.size (by rfl) y

/-! ## The body's triple -/

set_option maxHeartbeats 1000000 in
/-- The body on whole staging memrefs, the inputs' at read contents and the output's at anything, runs to the
    continuation holding the inputs' as they were and the output's at `outBlock` of the inputs'. -/
theorem sound_kernel (c : Dev nD) (E : Set ℕ) (i : grid0.Coords)
    (a2 : Memref sig .tc .vmem S1x256x256 .f32) (h2 : a2.IsWhole) (a3 : Memref sig .tc .vmem S1x2048x256 .f32) (h3 : a3.IsWhole)
    (a4 : Memref sig .tc .vmem S1x256x2048 .f32) (h4 : a4.IsWhole) (a5 : Memref sig .tc .vmem S1x2048x257 .f32) (h5 : a5.IsWhole)
    (a6 : Memref sig .tc .vmem S256x64 .f32) (h6 : a6.IsWhole) (a7 : Memref sig .tc .vmem S256x64 .f32) (h7 : a7.IsWhole)
    (a8 : Memref sig .tc .vmem S257x257 .f32) (h8 : a8.IsWhole) (a9 : Memref sig .tc .vmem S1x256x257 .f32) (h9 : a9.IsWhole)
    (xq : Vec F S1x256x256 .f32) (xk : Vec F S1x2048x256 .f32) (xm : Vec F S1x256x2048 .f32) (xz : Vec F S1x2048x257 .f32)
    (wq wk : Vec F S256x64 .f32) (wv : Vec F S257x257 .f32) (K : PUnit → sProp 𝕄) :
    iprop(owns (c : Thread nD τ) a2 fullShare xq ∗ owns (c : Thread nD τ) a3 fullShare xk ∗ owns (c : Thread nD τ) a4 fullShare xm
        ∗ owns (c : Thread nD τ) a5 fullShare xz ∗ owns (c : Thread nD τ) a6 fullShare wq ∗ owns (c : Thread nD τ) a7 fullShare wk
        ∗ owns (c : Thread nD τ) a8 fullShare wv ∗ (∃ d, owns (c : Thread nD τ) a9 fullShare d)
        ∗ (iprop(owns (c : Thread nD τ) a2 fullShare xq ∗ owns (c : Thread nD τ) a3 fullShare xk ∗ owns (c : Thread nD τ) a4 fullShare xm
            ∗ owns (c : Thread nD τ) a5 fullShare xz ∗ owns (c : Thread nD τ) a6 fullShare wq ∗ owns (c : Thread nD τ) a7 fullShare wk
            ∗ owns (c : Thread nD τ) a8 fullShare wv ∗ owns (c : Thread nD τ) a9 fullShare (outBlock xq xk xm xz wq wk wv)) -∗ K ⟨⟩))
      ⊢ wp frame (wpE (defs₀ (F := F)) Variants.none c none) E (cc0__attn_kernel i a2 h2 a3 h3 a4 h4 a5 h5 a6 h6 a7 h7 a8 h8 a9 h9) K := by
  simp only [cc0__attn_kernel_eq_skeleton]; unfold cc0__attn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The proof data -/

/-- The proof data on core `c`: the arrays as the region finds them; after the body at point `t` each input
    buffer at its window's block and the output buffer at `outBlock` of the input blocks; between points only the
    scoped buffers no window stages; nothing owed. The array of token features is read by windows 0 and 1, each
    holding one half of it; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d
theorem bef_3 (c : Dev nD) (t : Fin cfg0.N) (d) : (dats m 0 c).before 3 t d = iblk m c 3 t := before_3 m (dats m 0 c) (A_eq m c 3) (after_3 m c) t d
theorem bef_4 (c : Dev nD) (t : Fin cfg0.N) (d) : (dats m 0 c).before 4 t d = iblk m c 4 t := before_4 m (dats m 0 c) (A_eq m c 4) (after_4 m c) t d
theorem bef_5 (c : Dev nD) (t : Fin cfg0.N) (d) : (dats m 0 c).before 5 t d = iblk m c 5 t := before_5 m (dats m 0 c) (A_eq m c 5) (after_5 m c) t d
theorem bef_6 (c : Dev nD) (t : Fin cfg0.N) (d) : (dats m 0 c).before 6 t d = iblk m c 6 t := before_6 m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef_0, bef_1, bef_2, bef_3, bef_4, bef_5, bef_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The arrays' shares -/

/-- The seven distinct buffers behind the eight windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_arg0) ↦{fullShare} V m c main_arg0) ∗ (((c.tc : Thread nD τ).loc main_arg3) ↦{fullShare} V m c main_arg3)
          ∗ (((c.tc : Thread nD τ).loc main_arg4) ↦{fullShare} V m c main_arg4) ∗ (((c.tc : Thread nD τ).loc main_arg5) ↦{fullShare} V m c main_arg5)
          ∗ (((c.tc : Thread nD τ).loc main_v0) ↦{fullShare} V m c main_v0)) := by
  unfold Pipeline.arrBufs
  exact bigSep_eq_bigSepL_of_eq [main_arg1, main_arg2, main_arg0, main_arg3, main_arg4, main_arg5, main_v0] (by decide) (by decide) _

/-- One window's array as the proof data holds it, from its buffer whole at the window's share: a whole
    memref's index set is every index of its buffer, and the array's contents before any write-back are the
    entry contents. -/
theorem arr_piece (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ (((cfg0.win w).arr.view.loc (c.tc : Thread nD τ)) ↦[(cfg0.win w).arr.view.set]{(dats m 0 c).share w} (dats m 0 c).arrAt w 0) := by
  rw [(arr_whole0 w).set_eq_univ, hq, show (dats m 0 c).arrAt w 0 = V m c (Pipeline.arrRef spec0 w) from A_eq m c w]

/-- The seven distinct buffers behind the eight windows' arrays, each whole at its entry contents, yield every
    window's array at the share the proof data names: the array of token features is cut into its two halves,
    one for the query-row window and one for the key-row window; every other buffer goes to its one window. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain]
  unfold Dat.arrays
  rw [bigSep_W0]
  iintro ⟨H1, H2, H0, H3, H4, H5, H6⟩
  ihave H1s := (pointsTo_share (PosShare.mem_left_op_right fullShare)).1 $$ H1
  icases H1s with ⟨H1a, H1b⟩
  isplitl [H1a]; · iapply (arr_piece m c 0 fullShare.left rfl); iexact H1a
  isplitl [H1b]; · iapply (arr_piece m c 1 fullShare.right rfl); iexact H1b
  isplitl [H2]; · iapply (arr_piece m c 2 fullShare rfl); iexact H2
  isplitl [H0]; · iapply (arr_piece m c 3 fullShare rfl); iexact H0
  isplitl [H3]; · iapply (arr_piece m c 4 fullShare rfl); iexact H3
  isplitl [H4]; · iapply (arr_piece m c 5 fullShare rfl); iexact H4
  isplitl [H5]; · iapply (arr_piece m c 6 fullShare rfl); iexact H5
  iapply (arr_piece m c 7 fullShare rfl); iexact H6

/-! ## The run and the frame -/

set_option backward.isDefEq.respectTransparency.types false in
/-- Every weakly fair execution of the program terminates, and every final state has every window's array at what
    the write-backs of all 64 points make of its entry contents. -/
theorem run_main : θ_run defs (onTc (τ := τ) (main (F := F))) (s₀ m ρ) (fun r => ∀ c : Dev nD, ∀ w : Fin cfg0.W,
      r.2.mem ((cfg0.spec w).arr.view.loc (c.tc : Thread nD τ)) = (dats m 0 c).arrAt w cfg0.N) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_of_bufs m) (hΦ := fun _ _ => rfl)

/-- info: 'Cert.Kernel.Fr.run_main' depends on axioms: [propext, Classical.choice, Quot.sound] -/
#guard_msgs in #print axioms run_main

/-- The frame: the six argument arrays end as they were (each is the array of an input window, never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c 3).trans (((dats m 0 c).arrAt_in 3 rfl _).trans (A_eq m c 3)),
     (h c 0).trans (((dats m 0 c).arrAt_in 0 rfl _).trans (A_eq m c 0)),
     (h c 2).trans (((dats m 0 c).arrAt_in 2 rfl _).trans (A_eq m c 2)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6))⟩) (run_main m ρ)

end Cert.Kernel.Fr

end
-- ==== Proof.FrameIdeal.lean ====
/-
  The frame of the fused attention kernel: it runs to the end, faults nowhere, and leaves its argument arrays
  as they were.

  The call hands ONE array to two input windows: the rows of the current query tile (a [1, 256, 256] block that
  moves with both grid coordinates) and all 2048 rows of the same batch element as keys (a [1, 2048, 256] block
  that moves with the batch coordinate only) are both blocks of the array of token features. Both windows only
  read it, so the array's full share is cut in two halves, one per window; every other array belongs to one
  window and is held whole. At a grid point the body loads its seven input blocks, computes the tile's result as
  one pure function of them, and stores it over the whole output block; an input buffer holds its window's block
  at every point, fetched there or not, because an unfetched window's block index has not moved.
-/
import proofs.«147705_j5583457485447_1_alg».proof.Proof.Gen.KernelIdeal.Launch
import proofs.«147705_j5583457485447_1_alg».proof.Proof.Gen.KernelIdeal.Skeleton
import proofs.«147705_j5583457485447_1_alg».proof.Proof.Gen.KernelIdeal.Points
import proofs.«147705_j5583457485447_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds the window's block at every point, for any proof data whose
    array is the entry contents and whose body leaves the block in place. One statement per input window. -/
theorem before_0 (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

/-! ## The body's accesses: every load and the one store take the whole buffer -/

abbrev rq : Rect S1x256x256 := Rect.unit (s := S1x256x256) ![0, 0, 0] S1x256x256.size inb_S1x256x256_S1x256x256_0_0_0
abbrev rk : Rect S1x2048x256 := Rect.unit (s := S1x2048x256) ![0, 0, 0] S1x2048x256.size inb_S1x2048x256_S1x2048x256_0_0_0
abbrev rm : Rect S1x256x2048 := Rect.unit (s := S1x256x2048) ![0, 0, 0] S1x256x2048.size inb_S1x256x2048_S1x256x2048_0_0_0
abbrev rz : Rect S1x2048x257 := Rect.unit (s := S1x2048x257) ![0, 0, 0] S1x2048x257.size inb_S1x2048x257_S1x2048x257_0_0_0
abbrev rw64 : Rect S256x64 := Rect.unit (s := S256x64) ![0, 0] S256x64.size inb_S256x64_S256x64_0_0
abbrev rwv : Rect S257x257 := Rect.unit (s := S257x257) ![0, 0] S257x257.size inb_S257x257_S257x257_0_0
abbrev ro : Rect S1x256x257 := Rect.unit (s := S1x256x257) ![0, 0, 0] S1x256x257.size inb_S1x256x257_S1x256x257_0_0_0

/-- What the body leaves in the output window's buffer, from the seven input blocks (query rows, key rows, mask
    rows, value rows, the two projections, the output projection): its one store, over the whole buffer. -/
def outBlock (xq : Vec F S1x256x256 .f32) (xk : Vec F S1x2048x256 .f32) (xm : Vec F S1x256x2048 .f32) (xz : Vec F S1x2048x257 .f32)
    (wq wk : Vec F S256x64 .f32) (wv : Vec F S257x257 .f32) : Vec F S1x256x257 .f32 :=
  View.canon [⟨ro, k0_pay1 (k0_pay2 (View.ld xq rq) (View.ld xk rk) (View.ld wq rw64) (View.ld wk rw64) (View.ld wv rwv) (View.ld xm rm) (View.ld xz rz))⟩]

/-- The store covers the buffer. -/
theorem cover_out (p0 : Vec F S1x256x257 .f32) (y : S1x256x257.Idx) :
    ∃ pc ∈ ([⟨ro, p0⟩] : List (View.Piece (Elt F) S1x256x257 .f32)), y ∈ pc.1.set :=
  View.cover_of_tiled [⟨ro, p0⟩] S1x256x257.size (by rfl) y

/-! ## The body's triple -/

set_option maxHeartbeats 1000000 in
/-- The body on whole staging memrefs, the inputs' at read contents and the output's at anything, runs to the
    continuation holding the inputs' as they were and the output's at `outBlock` of the inputs'. -/
theorem sound_kernel (c : Dev nD) (E : Set ℕ) (i : grid0.Coords)
    (a2 : Memref sig .tc .vmem S1x256x256 .f32) (h2 : a2.IsWhole) (a3 : Memref sig .tc .vmem S1x2048x256 .f32) (h3 : a3.IsWhole)
    (a4 : Memref sig .tc .vmem S1x256x2048 .f32) (h4 : a4.IsWhole) (a5 : Memref sig .tc .vmem S1x2048x257 .f32) (h5 : a5.IsWhole)
    (a6 : Memref sig .tc .vmem S256x64 .f32) (h6 : a6.IsWhole) (a7 : Memref sig .tc .vmem S256x64 .f32) (h7 : a7.IsWhole)
    (a8 : Memref sig .tc .vmem S257x257 .f32) (h8 : a8.IsWhole) (a9 : Memref sig .tc .vmem S1x256x257 .f32) (h9 : a9.IsWhole)
    (xq : Vec F S1x256x256 .f32) (xk : Vec F S1x2048x256 .f32) (xm : Vec F S1x256x2048 .f32) (xz : Vec F S1x2048x257 .f32)
    (wq wk : Vec F S256x64 .f32) (wv : Vec F S257x257 .f32) (K : PUnit → sProp 𝕄) :
    iprop(owns (c : Thread nD τ) a2 fullShare xq ∗ owns (c : Thread nD τ) a3 fullShare xk ∗ owns (c : Thread nD τ) a4 fullShare xm
        ∗ owns (c : Thread nD τ) a5 fullShare xz ∗ owns (c : Thread nD τ) a6 fullShare wq ∗ owns (c : Thread nD τ) a7 fullShare wk
        ∗ owns (c : Thread nD τ) a8 fullShare wv ∗ (∃ d, owns (c : Thread nD τ) a9 fullShare d)
        ∗ (iprop(owns (c : Thread nD τ) a2 fullShare xq ∗ owns (c : Thread nD τ) a3 fullShare xk ∗ owns (c : Thread nD τ) a4 fullShare xm
            ∗ owns (c : Thread nD τ) a5 fullShare xz ∗ owns (c : Thread nD τ) a6 fullShare wq ∗ owns (c : Thread nD τ) a7 fullShare wk
            ∗ owns (c : Thread nD τ) a8 fullShare wv ∗ owns (c : Thread nD τ) a9 fullShare (outBlock xq xk xm xz wq wk wv)) -∗ K ⟨⟩))
      ⊢ wp frame (wpE (defs₀ (F := F)) Variants.none c none) E (cc0__attn_kernel i a2 h2 a3 h3 a4 h4 a5 h5 a6 h6 a7 h7 a8 h8 a9 h9) K := by
  simp only [cc0__attn_kernel_eq_skeleton]; unfold cc0__attn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The proof data -/

/-- The proof data on core `c`: the arrays as the region finds them; after the body at point `t` each input
    buffer at its window's block and the output buffer at `outBlock` of the input blocks; between points only the
    scoped buffers no window stages; nothing owed. The array of token features is read by windows 0 and 1, each
    holding one half of it; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d
theorem bef_3 (c : Dev nD) (t : Fin cfg0.N) (d) : (dats m 0 c).before 3 t d = iblk m c 3 t := before_3 m (dats m 0 c) (A_eq m c 3) (after_3 m c) t d
theorem bef_4 (c : Dev nD) (t : Fin cfg0.N) (d) : (dats m 0 c).before 4 t d = iblk m c 4 t := before_4 m (dats m 0 c) (A_eq m c 4) (after_4 m c) t d
theorem bef_5 (c : Dev nD) (t : Fin cfg0.N) (d) : (dats m 0 c).before 5 t d = iblk m c 5 t := before_5 m (dats m 0 c) (A_eq m c 5) (after_5 m c) t d
theorem bef_6 (c : Dev nD) (t : Fin cfg0.N) (d) : (dats m 0 c).before 6 t d = iblk m c 6 t := before_6 m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef_0, bef_1, bef_2, bef_3, bef_4, bef_5, bef_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The arrays' shares -/

/-- The seven distinct buffers behind the eight windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_arg0) ↦{fullShare} V m c main_arg0) ∗ (((c.tc : Thread nD τ).loc main_arg3) ↦{fullShare} V m c main_arg3)
          ∗ (((c.tc : Thread nD τ).loc main_arg4) ↦{fullShare} V m c main_arg4) ∗ (((c.tc : Thread nD τ).loc main_arg5) ↦{fullShare} V m c main_arg5)
          ∗ (((c.tc : Thread nD τ).loc main_v0) ↦{fullShare} V m c main_v0)) := by
  unfold Pipeline.arrBufs
  exact bigSep_eq_bigSepL_of_eq [main_arg1, main_arg2, main_arg0, main_arg3, main_arg4, main_arg5, main_v0] (by decide) (by decide) _

/-- One window's array as the proof data holds it, from its buffer whole at the window's share: a whole
    memref's index set is every index of its buffer, and the array's contents before any write-back are the
    entry contents. -/
theorem arr_piece (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ (((cfg0.win w).arr.view.loc (c.tc : Thread nD τ)) ↦[(cfg0.win w).arr.view.set]{(dats m 0 c).share w} (dats m 0 c).arrAt w 0) := by
  rw [(arr_whole0 w).set_eq_univ, hq, show (dats m 0 c).arrAt w 0 = V m c (Pipeline.arrRef spec0 w) from A_eq m c w]

/-- The seven distinct buffers behind the eight windows' arrays, each whole at its entry contents, yield every
    window's array at the share the proof data names: the array of token features is cut into its two halves,
    one for the query-row window and one for the key-row window; every other buffer goes to its one window. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain]
  unfold Dat.arrays
  rw [bigSep_W0]
  iintro ⟨H1, H2, H0, H3, H4, H5, H6⟩
  ihave H1s := (pointsTo_share (PosShare.mem_left_op_right fullShare)).1 $$ H1
  icases H1s with ⟨H1a, H1b⟩
  isplitl [H1a]; · iapply (arr_piece m c 0 fullShare.left rfl); iexact H1a
  isplitl [H1b]; · iapply (arr_piece m c 1 fullShare.right rfl); iexact H1b
  isplitl [H2]; · iapply (arr_piece m c 2 fullShare rfl); iexact H2
  isplitl [H0]; · iapply (arr_piece m c 3 fullShare rfl); iexact H0
  isplitl [H3]; · iapply (arr_piece m c 4 fullShare rfl); iexact H3
  isplitl [H4]; · iapply (arr_piece m c 5 fullShare rfl); iexact H4
  isplitl [H5]; · iapply (arr_piece m c 6 fullShare rfl); iexact H5
  iapply (arr_piece m c 7 fullShare rfl); iexact H6

/-! ## The run and the frame -/

set_option backward.isDefEq.respectTransparency.types false in
/-- Every weakly fair execution of the program terminates, and every final state has every window's array at what
    the write-backs of all 64 points make of its entry contents. -/
theorem run_main : θ_run defs (onTc (τ := τ) (main (F := F))) (s₀ m ρ) (fun r => ∀ c : Dev nD, ∀ w : Fin cfg0.W,
      r.2.mem ((cfg0.spec w).arr.view.loc (c.tc : Thread nD τ)) = (dats m 0 c).arrAt w cfg0.N) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_of_bufs m) (hΦ := fun _ _ => rfl)

/-- info: 'Cert.KernelIdeal.Fr.run_main' depends on axioms: [propext, Classical.choice, Quot.sound] -/
#guard_msgs in #print axioms run_main

/-- The frame: the six argument arrays end as they were (each is the array of an input window, never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c 3).trans (((dats m 0 c).arrAt_in 3 rfl _).trans (A_eq m c 3)),
     (h c 0).trans (((dats m 0 c).arrAt_in 0 rfl _).trans (A_eq m c 0)),
     (h c 2).trans (((dats m 0 c).arrAt_in 2 rfl _).trans (A_eq m c 2)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6))⟩) (run_main m ρ)

end Cert.KernelIdeal.Fr

end
-- ==== Proof.BodyValue.lean ====
/-
  The body's result block read at an index.

  The kernel body computes, from the loaded blocks xq [1,256,256], xk [1,2048,256], wq, wk [256,64], wv [257,257],
  mask [1,256,2048] and z [1,2048,257],

      out[r, w] = Σ_v (Σ_n max((Σ_k q[r,k] · kk[n,k]) · 0.125, 0) · mask[r,n] · z[n,v]) · wv[v,w]
      q[r,k]  = Σ_d xq[r,d] · wq[d,k]          kk[n,k] = Σ_d xk[n,d] · wk[d,k]

  At the ideal values a matrix product into a zero accumulator is the finite sum of the products over the contracted
  axis, a narrowing format change is the identity, a shape cast that drops or adds a leading unit axis only renames
  the index, and the pointwise operations act on the elements. One lemma per matrix product, then the two payloads.
-/
import proofs.«147705_j5583457485447_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Idealize.SL.Sem

/-! ## The query projection `[256,256] × [256,64]` -/

theorem mm_q_lhs0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem mm_q_lhs1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem mm_q_rhs0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem mm_q_rhs1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The product into the zero accumulator, read at `(a, b)`: the sum over the contracted coordinate `d` of
    left `(a, d)` times right `(d, b)`. -/
theorem mm_q_apply (x : FVec Ideal S256x256 .bf16) (y : FVec Ideal S256x64 .bf16) (a : Fin 256) (b : Fin 64) :
    matmul (F := Ideal) dot_S256x256_S256x64_S256x64_1_0_0_1_n_n none x y (constant (F := Ideal) S256x64 .f32 0x00000000#32) (ix2 a b)
      = ∑ d : Fin 256, x (ix2 a d) * y (ix2 d b) := by
  refine (Ideal.matmul_constant_zero_apply dot_S256x256_S256x64_S256x64_1_0_0_1_n_n none x y (ix2 a b)).trans ?_
  rw [← Equiv.sum_comp (contrEquiv1 dot_S256x256_S256x64_S256x64_1_0_0_1_n_n 256 rfl rfl).symm]
  refine Finset.sum_congr rfl fun d _ => ?_
  have hd := contrEquiv1_symm_val dot_S256x256_S256x64_S256x64_1_0_0_1_n_n 256 rfl rfl d
  have el : dot_S256x256_S256x64_S256x64_1_0_0_1_n_n.lhsIdx (ix2 a b) ((contrEquiv1 dot_S256x256_S256x64_S256x64_1_0_0_1_n_n 256 rfl rfl).symm d) = ix2 a d := funext fun c => Fin.ext (by
    match c with
    | ⟨0, _⟩ => exact mm_q_lhs0 _ _
    | ⟨1, _⟩ => exact (mm_q_lhs1 _ _).trans hd)
  have er : dot_S256x256_S256x64_S256x64_1_0_0_1_n_n.rhsIdx (ix2 a b) ((contrEquiv1 dot_S256x256_S256x64_S256x64_1_0_0_1_n_n 256 rfl rfl).symm d) = ix2 d b := funext fun c => Fin.ext (by
    match c with
    | ⟨0, _⟩ => exact (mm_q_rhs0 _ _).trans hd
    | ⟨1, _⟩ => exact mm_q_rhs1 _ _)
  rw [el, er]

/-! ## The key projection `[2048,256] × [256,64]` -/

theorem mm_k_lhs0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem mm_k_lhs1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem mm_k_rhs0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem mm_k_rhs1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The product into the zero accumulator, read at `(a, b)`: the sum over the contracted coordinate `d` of
    left `(a, d)` times right `(d, b)`. -/
theorem mm_k_apply (x : FVec Ideal S2048x256 .bf16) (y : FVec Ideal S256x64 .bf16) (a : Fin 2048) (b : Fin 64) :
    matmul (F := Ideal) dot_S2048x256_S256x64_S2048x64_1_0_0_1_n_n none x y (constant (F := Ideal) S2048x64 .f32 0x00000000#32) (ix2 a b)
      = ∑ d : Fin 256, x (ix2 a d) * y (ix2 d b) := by
  refine (Ideal.matmul_constant_zero_apply dot_S2048x256_S256x64_S2048x64_1_0_0_1_n_n none x y (ix2 a b)).trans ?_
  rw [← Equiv.sum_comp (contrEquiv1 dot_S2048x256_S256x64_S2048x64_1_0_0_1_n_n 256 rfl rfl).symm]
  refine Finset.sum_congr rfl fun d _ => ?_
  have hd := contrEquiv1_symm_val dot_S2048x256_S256x64_S2048x64_1_0_0_1_n_n 256 rfl rfl d
  have el : dot_S2048x256_S256x64_S2048x64_1_0_0_1_n_n.lhsIdx (ix2 a b) ((contrEquiv1 dot_S2048x256_S256x64_S2048x64_1_0_0_1_n_n 256 rfl rfl).symm d) = ix2 a d := funext fun c => Fin.ext (by
    match c with
    | ⟨0, _⟩ => exact mm_k_lhs0 _ _
    | ⟨1, _⟩ => exact (mm_k_lhs1 _ _).trans hd)
  have er : dot_S2048x256_S256x64_S2048x64_1_0_0_1_n_n.rhsIdx (ix2 a b) ((contrEquiv1 dot_S2048x256_S256x64_S2048x64_1_0_0_1_n_n 256 rfl rfl).symm d) = ix2 d b := funext fun c => Fin.ext (by
    match c with
    | ⟨0, _⟩ => exact (mm_k_rhs0 _ _).trans hd
    | ⟨1, _⟩ => exact mm_k_rhs1 _ _)
  rw [el, er]

/-! ## The scores `[256,64] × [2048,64]ᵀ` -/

theorem mm_s_lhs0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem mm_s_lhs1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem mm_s_rhs0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem mm_s_rhs1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The product with the right operand transposed, into the zero accumulator, read at `(a, b)`: the sum over the
    contracted coordinate `d` of left `(a, d)` times right `(b, d)`. -/
theorem mm_s_apply (x : FVec Ideal S256x64 .bf16) (y : FVec Ideal S2048x64 .bf16) (a : Fin 256) (b : Fin 2048) :
    matmul (F := Ideal) dot_S256x64_S2048x64_S256x2048_1_1_0_0_n_n none x y (constant (F := Ideal) S256x2048 .f32 0x00000000#32) (ix2 a b)
      = ∑ d : Fin 64, x (ix2 a d) * y (ix2 b d) := by
  refine (Ideal.matmul_constant_zero_apply dot_S256x64_S2048x64_S256x2048_1_1_0_0_n_n none x y (ix2 a b)).trans ?_
  rw [← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 a b) ((contrEquiv1 dot_S256x64_S2048x64_S256x2048_1_1_0_0_n_n 64 rfl rfl).symm d) = ix2 a d := funext fun c => Fin.ext (by
    match c with
    | ⟨0, _⟩ => exact mm_s_lhs0 _ _
    | ⟨1, _⟩ => exact (mm_s_lhs1 _ _).trans hd)
  have er : dot_S256x64_S2048x64_S256x2048_1_1_0_0_n_n.rhsIdx (ix2 a b) ((contrEquiv1 dot_S256x64_S2048x64_S256x2048_1_1_0_0_n_n 64 rfl rfl).symm d) = ix2 b d := funext fun c => Fin.ext (by
    match c with
    | ⟨0, _⟩ => exact mm_s_rhs0 _ _
    | ⟨1, _⟩ => exact (mm_s_rhs1 _ _).trans hd)
  rw [el, er]

/-! ## The weighted sum of the values `[256,2048] × [2048,257]` -/

theorem mm_z_lhs0 (i : S256x257.Idx) (q : dot_S256x2048_S2048x257_S256x257_1_0_0_1_n_n.contr.Idx) :
    (dot_S256x2048_S2048x257_S256x257_1_0_0_1_n_n.lhsIdx i q 0).val = (i 0).val := by
  unfold DotDims.lhsIdx
  rw [dif_neg (show ¬(0 : Fin S256x2048.rank) ∈ dot_S256x2048_S2048x257_S256x257_1_0_0_1_n_n.lhsBatch by decide), dif_pos (show (0 : Fin S256x2048.rank) ∈ dot_S256x2048_S2048x257_S256x257_1_0_0_1_n_n.lhsNonContracting by decide)]
  rfl
theorem mm_z_lhs1 (i : S256x257.Idx) (q : dot_S256x2048_S2048x257_S256x257_1_0_0_1_n_n.contr.Idx) :
    (dot_S256x2048_S2048x257_S256x257_1_0_0_1_n_n.lhsIdx i q 1).val = (q ⟨0, by decide⟩).val :=
  dot_S256x2048_S2048x257_S256x257_1_0_0_1_n_n.lhsIdx_val_of_single rfl i q
theorem mm_z_rhs0 (i : S256x257.Idx) (q : dot_S256x2048_S2048x257_S256x257_1_0_0_1_n_n.contr.Idx) :
    (dot_S256x2048_S2048x257_S256x257_1_0_0_1_n_n.rhsIdx i q 0).val = (q ⟨0, by decide⟩).val :=
  dot_S256x2048_S2048x257_S256x257_1_0_0_1_n_n.rhsIdx_val_of_single rfl i q
theorem mm_z_rhs1 (i : S256x257.Idx) (q : dot_S256x2048_S2048x257_S256x257_1_0_0_1_n_n.contr.Idx) :
    (dot_S256x2048_S2048x257_S256x257_1_0_0_1_n_n.rhsIdx i q 1).val = (i 1).val := by
  unfold DotDims.rhsIdx
  rw [dif_neg (show ¬(1 : Fin S2048x257.rank) ∈ dot_S256x2048_S2048x257_S256x257_1_0_0_1_n_n.rhsBatch by decide), dif_pos (show (1 : Fin S2048x257.rank) ∈ dot_S256x2048_S2048x257_S256x257_1_0_0_1_n_n.rhsNonContracting by decide)]
  rfl

/-- The product into the zero accumulator, read at `(a, b)`: the sum over the contracted coordinate `d` of
    left `(a, d)` times right `(d, b)`. -/
theorem mm_z_apply (x : FVec Ideal S256x2048 .bf16) (y : FVec Ideal S2048x257 .bf16) (a : Fin 256) (b : Fin 257) :
    matmul (F := Ideal) dot_S256x2048_S2048x257_S256x257_1_0_0_1_n_n none x y (constant (F := Ideal) S256x257 .f32 0x00000000#32) (ix2 a b)
      = ∑ d : Fin 2048, x (ix2 a d) * y (ix2 d b) := by
  refine (Ideal.matmul_constant_zero_apply dot_S256x2048_S2048x257_S256x257_1_0_0_1_n_n none x y (ix2 a b)).trans ?_
  rw [← Equiv.sum_comp (contrEquiv1 dot_S256x2048_S2048x257_S256x257_1_0_0_1_n_n 2048 rfl rfl).symm]
  refine Finset.sum_congr rfl fun d _ => ?_
  have hd := contrEquiv1_symm_val dot_S256x2048_S2048x257_S256x257_1_0_0_1_n_n 2048 rfl rfl d
  have el : dot_S256x2048_S2048x257_S256x257_1_0_0_1_n_n.lhsIdx (ix2 a b) ((contrEquiv1 dot_S256x2048_S2048x257_S256x257_1_0_0_1_n_n 2048 rfl rfl).symm d) = ix2 a d := funext fun c => Fin.ext (by
    match c with
    | ⟨0, _⟩ => exact mm_z_lhs0 _ _
    | ⟨1, _⟩ => exact (mm_z_lhs1 _ _).trans hd)
  have er : dot_S256x2048_S2048x257_S256x257_1_0_0_1_n_n.rhsIdx (ix2 a b) ((contrEquiv1 dot_S256x2048_S2048x257_S256x257_1_0_0_1_n_n 2048 rfl rfl).symm d) = ix2 d b := funext fun c => Fin.ext (by
    match c with
    | ⟨0, _⟩ => exact (mm_z_rhs0 _ _).trans hd
    | ⟨1, _⟩ => exact mm_z_rhs1 _ _)
  rw [el, er]

/-! ## The output projection `[256,257] × [257,257]` -/

theorem mm_o_lhs0 (i : S256x257.Idx) (q : dot_S256x257_S257x257_S256x257_1_0_0_1_n_n.contr.Idx) :
    (dot_S256x257_S257x257_S256x257_1_0_0_1_n_n.lhsIdx i q 0).val = (i 0).val := by
  unfold DotDims.lhsIdx
  rw [dif_neg (show ¬(0 : Fin S256x257.rank) ∈ dot_S256x257_S257x257_S256x257_1_0_0_1_n_n.lhsBatch by decide), dif_pos (show (0 : Fin S256x257.rank) ∈ dot_S256x257_S257x257_S256x257_1_0_0_1_n_n.lhsNonContracting by decide)]
  rfl
theorem mm_o_lhs1 (i : S256x257.Idx) (q : dot_S256x257_S257x257_S256x257_1_0_0_1_n_n.contr.Idx) :
    (dot_S256x257_S257x257_S256x257_1_0_0_1_n_n.lhsIdx i q 1).val = (q ⟨0, by decide⟩).val :=
  dot_S256x257_S257x257_S256x257_1_0_0_1_n_n.lhsIdx_val_of_single rfl i q
theorem mm_o_rhs0 (i : S256x257.Idx) (q : dot_S256x257_S257x257_S256x257_1_0_0_1_n_n.contr.Idx) :
    (dot_S256x257_S257x257_S256x257_1_0_0_1_n_n.rhsIdx i q 0).val = (q ⟨0, by decide⟩).val :=
  dot_S256x257_S257x257_S256x257_1_0_0_1_n_n.rhsIdx_val_of_single rfl i q
theorem mm_o_rhs1 (i : S256x257.Idx) (q : dot_S256x257_S257x257_S256x257_1_0_0_1_n_n.contr.Idx) :
    (dot_S256x257_S257x257_S256x257_1_0_0_1_n_n.rhsIdx i q 1).val = (i 1).val := by
  unfold DotDims.rhsIdx
  rw [dif_neg (show ¬(1 : Fin S257x257.rank) ∈ dot_S256x257_S257x257_S256x257_1_0_0_1_n_n.rhsBatch by decide), dif_pos (show (1 : Fin S257x257.rank) ∈ dot_S256x257_S257x257_S256x257_1_0_0_1_n_n.rhsNonContracting by decide)]
  rfl

/-- The product into the zero accumulator, read at `(a, b)`: the sum over the contracted coordinate `d` of
    left `(a, d)` times right `(d, b)`. -/
theorem mm_o_apply (x : FVec Ideal S256x257 .bf16) (y : FVec Ideal S257x257 .bf16) (a : Fin 256) (b : Fin 257) :
    matmul (F := Ideal) dot_S256x257_S257x257_S256x257_1_0_0_1_n_n none x y (constant (F := Ideal) S256x257 .f32 0x00000000#32) (ix2 a b)
      = ∑ d : Fin 257, x (ix2 a d) * y (ix2 d b) := by
  refine (Ideal.matmul_constant_zero_apply dot_S256x257_S257x257_S256x257_1_0_0_1_n_n none x y (ix2 a b)).trans ?_
  rw [← Equiv.sum_comp (contrEquiv1 dot_S256x257_S257x257_S256x257_1_0_0_1_n_n 257 rfl rfl).symm]
  refine Finset.sum_congr rfl fun d _ => ?_
  have hd := contrEquiv1_symm_val dot_S256x257_S257x257_S256x257_1_0_0_1_n_n 257 rfl rfl d
  have el : dot_S256x257_S257x257_S256x257_1_0_0_1_n_n.lhsIdx (ix2 a b) ((contrEquiv1 dot_S256x257_S257x257_S256x257_1_0_0_1_n_n 257 rfl rfl).symm d) = ix2 a d := funext fun c => Fin.ext (by
    match c with
    | ⟨0, _⟩ => exact mm_o_lhs0 _ _
    | ⟨1, _⟩ => exact (mm_o_lhs1 _ _).trans hd)
  have er : dot_S256x257_S257x257_S256x257_1_0_0_1_n_n.rhsIdx (ix2 a b) ((contrEquiv1 dot_S256x257_S257x257_S256x257_1_0_0_1_n_n 257 rfl rfl).symm d) = ix2 d b := funext fun c => Fin.ext (by
    match c with
    | ⟨0, _⟩ => exact (mm_o_rhs0 _ _).trans hd
    | ⟨1, _⟩ => exact mm_o_rhs1 _ _)
  rw [el, er]

/-! ## The payloads -/

/-- A product of extended reals, factor by factor. -/
theorem mul_congr {a b c d : EReal} (h₁ : a = c) (h₂ : b = d) : a * b = c * d := by rw [h₁, h₂]

/-- The body's result block at `(r, w)`:
    `Σ_v (Σ_n max((Σ_k q[r,k] · kk[n,k]) · 0.125, 0) · mask[r,n] · z[n,v]) · wv[v,w]` with
    `q[r,k] = Σ_d xq[r,d] · wq[d,k]` and `kk[n,k] = Σ_d xk[n,d] · wk[d,k]`. The narrowing format changes are the
    identity on extended reals, and each cast that drops the leading unit axis reads `(0, a, b)` at `(a, b)`. -/
theorem pay2_apply (v0 : Vec Ideal S1x256x256 .f32) (v3 : Vec Ideal S1x2048x256 .f32) (v6 v8 : Vec Ideal S256x64 .f32)
    (v10 : Vec Ideal S257x257 .f32) (v21 : Vec Ideal S1x256x2048 .f32) (v25 : Vec Ideal S1x2048x257 .f32)
    (r : Fin 256) (w : Fin 257) :
    Gen.k0_pay2 (F := Ideal) v0 v3 v6 v8 v10 v21 v25 (ix2 r w)
      = ∑ v : Fin 257, (∑ n : Fin 2048, ((max ((∑ k : Fin 64, (∑ d : Fin 256, v0 (ix3 0 r d) * v6 (ix2 d k))
            * (∑ d : Fin 256, v3 (ix3 0 n d) * v8 (ix2 d k))) * Ideal.ofBits .f32 0x3E000000#32)
          (Ideal.ofBits .f32 0x00000000#32)) * v21 (ix3 0 r n)) * v25 (ix3 0 n v)) * v10 (ix2 v w) := by
  unfold Gen.k0_pay2
  -- the output projection: Σ_v · wv[v,w]
  refine (mm_o_apply _ _ r w).trans ?_
  refine Finset.sum_congr rfl fun v _ => ?_
  refine mul_congr ?_ rfl
  -- the weighted sum of the values: Σ_n · z[n,v]
  refine (mm_z_apply _ _ r v).trans ?_
  refine Finset.sum_congr rfl fun n _ => ?_
  refine mul_congr ?_ (shapeCast_1ab_ab_apply v25 _ n v)
  -- the mask, the maximum with 0 and the scale by 0.125, all pointwise
  refine mul_congr ?_ (shapeCast_1ab_ab_apply v21 _ r n)
  refine congrArg (max · (Ideal.ofBits .f32 0x00000000#32)) ?_
  refine mul_congr ?_ rfl
  -- the scores: Σ_k q[r,k] · kk[n,k]
  refine (mm_s_apply _ _ r n).trans ?_
  refine Finset.sum_congr rfl fun k _ => ?_
  refine mul_congr ?_ ?_
  · -- q[r,k] = Σ_d xq[r,d] · wq[d,k]
    refine (mm_q_apply _ _ r k).trans ?_
    refine Finset.sum_congr rfl fun d _ => ?_
    exact mul_congr (shapeCast_1ab_ab_apply v0 _ r d) rfl
  · -- kk[n,k] = Σ_d xk[n,d] · wk[d,k]
    refine (mm_k_apply _ _ n k).trans ?_
    refine Finset.sum_congr rfl fun d _ => ?_
    exact mul_congr (shapeCast_1ab_ab_apply v3 _ n d) rfl

/-- The stored block adds a leading unit axis: at `(u, a, b)` it reads the result block at `(a, b)`. -/
theorem pay1_apply (v30 : FVec Ideal S256x257 .f32) (y : S1x256x257.Idx) :
    Gen.k0_pay1 (F := Ideal) v30 y = v30 (ix2 (y 1) (y 2)) := by
  unfold Gen.k0_pay1
  obtain ⟨u, a, b, rfl⟩ : ∃ (u : Fin 1) (a : Fin 256) (b : Fin 257), y = ix3 u a b := ⟨y 0, y 1, y 2, eq_ix3 y⟩
  exact shapeCast_ab_1ab_apply v30 _ u a b

end Cert.KernelIdeal.BodyValue

end
-- ==== Proof.RefRead.lean ====
/-
  The reference's run read one operation at a time (the generated run and read-at-an-index modules), gathered
  under one import for the modules that compare it with the kernel.
-/
import proofs.«147705_j5583457485447_1_alg».proof.Proof.Gen.ReferenceIdeal.Read
-- ==== Proof.RefValue.lean ====
/-
  The reference's result read at an index.

  The reference computes, for each batch `b`, from the token features X [8,2048,256], the query and key projections
  Wq, Wk [256,64], the mask M [8,2048,2048], the value rows Z [8,2048,257] and the output projection Wv [257,257],

      out[b, r, w] = Σ_v (Σ_n max((Σ_k q[b,r,k] · kk[b,n,k]) · 0.125, 0) · M[b,r,n] · Z[b,n,v]) · Wv[v,w]
      q[b,r,k]  = Σ_d X[b,r,d] · Wq[d,k]          kk[b,n,k] = Σ_d X[b,n,d] · Wk[d,k]

  Each operation of the reference is read at an index by the generated lemmas; here they are chained from the last
  contraction inwards, and the operand indices the generated lemmas name are identified with the coordinates.
-/
import proofs.«147705_j5583457485447_1_alg».proof.Proof.RefRead
import Idealize.ShloMosaic.Lib.ValueIdx

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-! ## Products and maxima of extended reals, argument by argument -/

theorem mul_congr {a b c d : EReal} (h₁ : a = c) (h₂ : b = d) : a * b = c * d := by rw [h₁, h₂]

/-- At the ideal values the float product is the product of extended reals. -/
theorem mulf_congr {φ : FTy} {a b : Ideal φ} {c d : EReal} (h₁ : a = c) (h₂ : b = d) :
    FloatOps.mulf (F := Ideal) a b = c * d := by subst h₁ h₂; rfl

/-- At the ideal values the float maximum is the maximum of extended reals. -/
theorem maxf_congr {φ : FTy} {a b : Ideal φ} {c d : EReal} (h₁ : a = c) (h₂ : b = d) :
    FloatOps.maximumf (F := Ideal) a b = max c d := by subst h₁ h₂; rfl

/-! ## The operand indices of the four contractions, by coordinates -/

theorem lidx_q (b : Fin 8) (r : Fin 2048) (k : Fin 64) (d : Fin 256) :
    Read.lidx_main_v0 (ix3 b r k) d = ix3 b r d :=
  funext fun a => by match a with | ⟨0, _⟩ => rfl | ⟨1, _⟩ => rfl | ⟨2, _⟩ => rfl

theorem ridx_q (b : Fin 8) (r : Fin 2048) (k : Fin 64) (d : Fin 256) :
    Read.ridx_main_v0 (ix3 b r k) d = ix2 d k :=
  funext fun a => by match a with | ⟨0, _⟩ => rfl | ⟨1, _⟩ => rfl

theorem lidx_k (b : Fin 8) (r : Fin 2048) (k : Fin 64) (d : Fin 256) :
    Read.lidx_main_v1 (ix3 b r k) d = ix3 b r d :=
  funext fun a => by match a with | ⟨0, _⟩ => rfl | ⟨1, _⟩ => rfl | ⟨2, _⟩ => rfl

theorem ridx_k (b : Fin 8) (r : Fin 2048) (k : Fin 64) (d : Fin 256) :
    Read.ridx_main_v1 (ix3 b r k) d = ix2 d k :=
  funext fun a => by match a with | ⟨0, _⟩ => rfl | ⟨1, _⟩ => rfl

theorem lidx_s (b : Fin 8) (r n : Fin 2048) (k : Fin 64) :
    Read.lidx_main_v2 (ix3 b r n) k = ix3 b r k :=
  funext fun a => by match a with | ⟨0, _⟩ => rfl | ⟨1, _⟩ => rfl | ⟨2, _⟩ => rfl

theorem ridx_s (b : Fin 8) (r n : Fin 2048) (k : Fin 64) :
    Read.ridx_main_v2 (ix3 b r n) k = ix3 b n k :=
  funext fun a => by match a with | ⟨0, _⟩ => rfl | ⟨1, _⟩ => rfl | ⟨2, _⟩ => rfl

theorem lidx_z (b : Fin 8) (r : Fin 2048) (v : Fin 257) (n : Fin 2048) :
    Read.lidx_main_v7 (ix3 b r v) n = ix3 b r n :=
  funext fun a => by match a with | ⟨0, _⟩ => rfl | ⟨1, _⟩ => rfl | ⟨2, _⟩ => rfl

theorem ridx_z (b : Fin 8) (r : Fin 2048) (v : Fin 257) (n : Fin 2048) :
    Read.ridx_main_v7 (ix3 b r v) n = ix3 b n v :=
  funext fun a => by match a with | ⟨0, _⟩ => rfl | ⟨1, _⟩ => rfl | ⟨2, _⟩ => rfl

theorem lidx_o (b : Fin 8) (r : Fin 2048) (w v : Fin 257) :
    Read.lidx_main_v8 (ix3 b r w) v = ix3 b r v :=
  funext fun a => by match a with | ⟨0, _⟩ => rfl | ⟨1, _⟩ => rfl | ⟨2, _⟩ => rfl

theorem ridx_o (b : Fin 8) (r : Fin 2048) (w v : Fin 257) :
    Read.ridx_main_v8 (ix3 b r w) v = ix2 v w :=
  funext fun a => by match a with | ⟨0, _⟩ => rfl | ⟨1, _⟩ => rfl

/-! ## The two projections -/

/-- `q[b,r,k] = Σ_d X[b,r,d] · Wq[d,k]`. -/
theorem q_apply (x1 : (⟨S8x2048x256, .f32⟩ : BufTy).Contents (Elt Ideal)) (x3 : (⟨S256x64, .f32⟩ : BufTy).Contents (Elt Ideal))
    (b : Fin 8) (r : Fin 2048) (k : Fin 64) :
    Read.val_main_v0 (F := Ideal) x1 x3 (ix3 b r k) = ∑ d : Fin 256, x1 (ix3 b r d) * x3 (ix2 d k) := by
  refine (Read.val_main_v0_apply x1 x3 (ix3 b r k)).trans ?_
  refine Finset.sum_congr rfl fun d _ => ?_
  exact mul_congr (congrArg x1 (lidx_q b r k d)) (congrArg x3 (ridx_q b r k d))

/-- `kk[b,n,k] = Σ_d X[b,n,d] · Wk[d,k]`. -/
theorem k_apply (x1 : (⟨S8x2048x256, .f32⟩ : BufTy).Contents (Elt Ideal)) (x4 : (⟨S256x64, .f32⟩ : BufTy).Contents (Elt Ideal))
    (b : Fin 8) (n : Fin 2048) (k : Fin 64) :
    Read.val_main_v1 (F := Ideal) x1 x4 (ix3 b n k) = ∑ d : Fin 256, x1 (ix3 b n d) * x4 (ix2 d k) := by
  refine (Read.val_main_v1_apply x1 x4 (ix3 b n k)).trans ?_
  refine Finset.sum_congr rfl fun d _ => ?_
  exact mul_congr (congrArg x1 (lidx_k b n k d)) (congrArg x4 (ridx_k b n k d))

/-! ## The result -/

/-- The reference's result at `(b, r, w)`:
    `Σ_v (Σ_n max((Σ_k q[b,r,k] · kk[b,n,k]) · 0.125, 0) · M[b,r,n] · Z[b,n,v]) · Wv[v,w]`. -/
theorem ref_apply (x0 : (⟨S8x2048x257, .f32⟩ : BufTy).Contents (Elt Ideal)) (x1 : (⟨S8x2048x256, .f32⟩ : BufTy).Contents (Elt Ideal))
    (x2 : (⟨S8x2048x2048, .f32⟩ : BufTy).Contents (Elt Ideal)) (x3 x4 : (⟨S256x64, .f32⟩ : BufTy).Contents (Elt Ideal))
    (x5 : (⟨S257x257, .f32⟩ : BufTy).Contents (Elt Ideal)) (b : Fin 8) (r : Fin 2048) (w : Fin 257) :
    Read.val_main_v8 (F := Ideal) x0 x1 x2 x3 x4 x5 (ix3 b r w)
      = ∑ v : Fin 257, (∑ n : Fin 2048, ((max ((∑ k : Fin 64, (∑ d : Fin 256, x1 (ix3 b r d) * x3 (ix2 d k))
            * (∑ d : Fin 256, x1 (ix3 b n d) * x4 (ix2 d k))) * Ideal.ofBits .f32 0x3E000000#32)
          (Ideal.ofBits .f32 0x00000000#32)) * x2 (ix3 b r n)) * x0 (ix3 b n v)) * x5 (ix2 v w) := by
  -- the output projection: Σ_v · Wv[v,w]
  refine (Read.val_main_v8_apply x0 x1 x2 x3 x4 x5 (ix3 b r w)).trans ?_
  refine Finset.sum_congr rfl fun v _ => ?_
  refine mul_congr ?_ (congrArg x5 (ridx_o b r w v))
  refine (congrArg (Read.val_main_v7 (F := Ideal) x0 x1 x2 x3 x4) (lidx_o b r w v)).trans ?_
  -- the weighted sum of the value rows: Σ_n · Z[b,n,v]
  refine (Read.val_main_v7_apply x0 x1 x2 x3 x4 (ix3 b r v)).trans ?_
  refine Finset.sum_congr rfl fun n _ => ?_
  refine mul_congr ?_ (congrArg x0 (ridx_z b r v n))
  refine (congrArg (Read.val_main_v6 (F := Ideal) x1 x2 x3 x4) (lidx_z b r v n)).trans ?_
  -- the mask, the maximum with 0 and the scale by 0.125, all pointwise
  refine (Read.val_main_v6_apply x1 x2 x3 x4 (ix3 b r n)).trans ?_
  refine mulf_congr ?_ rfl
  refine (Read.val_main_v5_apply x1 x3 x4 (ix3 b r n)).trans ?_
  refine maxf_congr ?_ ?_
  · refine (Read.val_main_v4_apply x1 x3 x4 (ix3 b r n)).trans ?_
    refine mulf_congr ?_ ?_
    · -- the scores: Σ_k q[b,r,k] · kk[b,n,k]
      refine (Read.val_main_v2_apply x1 x3 x4 (ix3 b r n)).trans ?_
      refine Finset.sum_congr rfl fun k _ => ?_
      refine mul_congr ?_ ?_
      · exact (congrArg (Read.val_main_v0 (F := Ideal) x1 x3) (lidx_s b r n k)).trans (q_apply x1 x3 b r k)
      · exact (congrArg (Read.val_main_v1 (F := Ideal) x1 x4) (ridx_s b r n k)).trans (k_apply x1 x4 b n k)
    · exact (Read.val_main_v3_apply (F := Ideal) (ix3 b r n)).trans (Read.val_main_cst_apply (F := Ideal) _)
  · exact (Read.val_main_call0_v0_apply (F := Ideal) (ix3 b r n)).trans (Read.val_main_call0_cst_apply (F := Ideal) _)

end Cert.ReferenceIdeal.RefValue

end
-- ==== Proof.OutCover.lean ====
/-
  The output window's blocks cover the result array, and where each input window's block sits beside it.

  The kernel runs on an 8 × 8 grid. At grid point (b, q) the output window is the [1, 256, 257] block of the
  [8, 2048, 257] result at block index (b, q, 0): batch b, rows 256·q … 256·q + 255, every column. The query-side
  inputs (the token features' rows and the mask's rows) sit at the same block index, the key-side inputs (all 2048 token
  rows and all 2048 value rows of batch b) at (b, 0, 0), and the three weight matrices are whole arrays at (0, 0).
  Every point writes its block back, and every index (b, r, w) of the result lies in the block of the point
  (b, r / 256).
-/
import proofs.«147705_j5583457485447_1_alg».proof.Proof.Gen.KernelIdeal.Points
import Idealize.ShloMosaic.Lib.Pipeline.Value

noncomputable section

namespace Cert.KernelIdeal.OutCover

open Cert.KernelIdeal Cert.KernelIdeal.Gen Idealize.ShloMosaic Idealize.ShloMosaic.TcCoe Idealize.SL.Sem

/-- The index maps, decided over the 64 grid points: each input window's block index in terms of the output
    window's, and the output's block indices in their ranges. -/
theorem idx_facts : ∀ t : Fin cfg0.N, win0_0.index t (0 : Fin 3) = win0_7.index t (0 : Fin 3)
    ∧ win0_0.index t (1 : Fin 3) = win0_7.index t (1 : Fin 3)
    ∧ win0_0.index t (2 : Fin 3) = 0
    ∧ win0_1.index t (0 : Fin 3) = win0_7.index t (0 : Fin 3)
    ∧ win0_1.index t (1 : Fin 3) = 0
    ∧ win0_1.index t (2 : Fin 3) = 0
    ∧ win0_2.index t (0 : Fin 3) = win0_7.index t (0 : Fin 3)
    ∧ win0_2.index t (1 : Fin 3) = win0_7.index t (1 : Fin 3)
    ∧ win0_2.index t (2 : Fin 3) = 0
    ∧ win0_3.index t (0 : Fin 3) = win0_7.index t (0 : Fin 3)
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 3) ≤ 7
    ∧ win0_7.index t (1 : Fin 3) ≤ 7
    ∧ win0_7.index t (2 : Fin 3) = 0 :=
  (by decide +kernel : ∀ t : Fin grid0.N, _)

/-- Every block index (q0, q1, 0) of the result is some grid point's. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-- An index of the result is in point `t`'s block iff each coordinate is in the block's range on its axis. -/
theorem mem_blk (t : Fin cfg0.N) (i : S8x2048x257.Idx) :
    i ∈ ((cfg0.win 7).blk t).view.set ↔ ∀ a : Fin 3, win0_7.index t a * S1x256x257.size a ≤ (i a).val ∧ (i a).val < win0_7.index t a * S1x256x257.size a + S1x256x257.size a := by
  show i ∈ ((View.whole main_v0).slice (win0_7.rect t)).set ↔ _
  rw [View.set_slice_whole, Rect.mem_set_unit]
  exact Iff.rfl

/-- Every index (b, r, w) of the result is written back by some point: the one with block index (b, r / 256, 0). -/
theorem cover : ∀ i : S8x2048x257.Idx, ∃ t : Fin cfg0.N, (cfg0.win 7).flush t = true ∧ i ∈ ((cfg0.win 7).blk t).view.set := by
  intro i
  have hi0 : (i 0).val < 8 := (i 0).isLt
  have hi1 : (i 1).val < 2048 := (i 1).isLt
  have hi2 : (i 2).val < 257 := (i 2).isLt
  obtain ⟨t, ht⟩ := idx_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 257 ≤ (i 2).val ∧ (i 2).val < win0_7.index t (2 : Fin 3) * 257 + 257; omega

end Cert.KernelIdeal.OutCover

end
-- ==== Proof.KernelValue.lean ====
/-
  What the idealized kernel's result array holds after the run: the reference's own function of the six argument
  arrays, index by index.

  The result has 8 batch elements of 2048 rows of 257 features. Grid point (b, q) writes the 256 rows
  256·q … 256·q + 255 of batch element b: row r of that tile, feature w, is
      Σ_v (Σ_n max((Σ_k Q[r,k] · K[n,k]) · 1/8, 0) · mask[b, 256·q + r, n] · Z[b, n, v]) · Wv[v, w]
  with Q[r, k] = Σ_d X[b, 256·q + r, d] · Wq[d, k] over the tile's query rows and K[n, k] = Σ_d X[b, n, d] · Wk[d, k]
  over all 2048 rows of the batch element. Each loaded block read at an index is its array read at the block's
  offset plus the index, so this is the reference's term at row 256·q + r of batch element b; the 64 tiles cover
  the array, so the array ends at the reference's function everywhere. No law of the extended reals is used
  beyond reading both sides as the same nested sums: the two programs add and multiply the same numbers in the
  same arrangement.
-/
import proofs.«147705_j5583457485447_1_alg».proof.Proof.FrameIdeal
import proofs.«147705_j5583457485447_1_alg».proof.Proof.BodyValue
import proofs.«147705_j5583457485447_1_alg».proof.Proof.RefValue
import proofs.«147705_j5583457485447_1_alg».proof.Proof.OutCover
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result as one function of the argument arrays as launched: the reference's last stage. -/
abbrev G (c : Dev nD) : S8x2048x257.Idx → Elt Ideal .f32 :=
  Cert.ReferenceIdeal.Read.val_main_v8 (F := Ideal) (V m c main_arg0) (V m c main_arg1) (V m c main_arg2) (V m c main_arg3) (V m c main_arg4) (V m c main_arg5)

theorem hz3 : (![0, 0, 0] : Fin 3 → Nat) = fun _ => 0 := funext fun a => by fin_cases a <;> rfl
theorem hz2 : (![0, 0] : Fin 2 → Nat) = fun _ => 0 := funext fun a => by fin_cases a <;> rfl

/-! ## A loaded block read at an index is its array read at the block's offset plus the index -/

/-- The query rows: row `a` of the tile is row `256·q + a` of batch element `b`. -/
theorem blk_q (c : Dev nD) (t : Fin cfg0.N) (b : Fin 8) (hb : b.val = win0_7.index t (0 : Fin 3)) (a : Fin 256) (d : Fin 256) (r : Fin 2048) (hr : r.val = win0_7.index t (1 : Fin 3) * 256 + a.val) :
    iblk m c 0 t (ix3 0 a d) = V m c main_arg1 (ix3 b r d) := by
  have hf := OutCover.idx_facts t
  show V m c main_arg1 (((cfg0.win 0).blk t).view.emb (ix3 0 a d)) = _
  refine congrArg _ (funext fun x => Fin.ext ?_)
  match x with
  | ⟨0, _⟩ => show win0_0.index t (0 : Fin 3) * 1 + 1 * 0 = b.val; omega
  | ⟨1, _⟩ => show win0_0.index t (1 : Fin 3) * 256 + 1 * a.val = r.val; omega
  | ⟨2, _⟩ => show win0_0.index t (2 : Fin 3) * 256 + 1 * d.val = d.val; omega

/-- The key rows: all 2048 rows of batch element `b`. -/
theorem blk_k (c : Dev nD) (t : Fin cfg0.N) (b : Fin 8) (hb : b.val = win0_7.index t (0 : Fin 3)) (n : Fin 2048) (d : Fin 256) :
    iblk m c 1 t (ix3 0 n d) = V m c main_arg1 (ix3 b n d) := by
  have hf := OutCover.idx_facts t
  show V m c main_arg1 (((cfg0.win 1).blk t).view.emb (ix3 0 n d)) = _
  refine congrArg _ (funext fun x => Fin.ext ?_)
  match x with
  | ⟨0, _⟩ => show win0_1.index t (0 : Fin 3) * 1 + 1 * 0 = b.val; omega
  | ⟨1, _⟩ => show win0_1.index t (1 : Fin 3) * 2048 + 1 * n.val = n.val; omega
  | ⟨2, _⟩ => show win0_1.index t (2 : Fin 3) * 256 + 1 * d.val = d.val; omega

/-- The mask rows of the tile. -/
theorem blk_m (c : Dev nD) (t : Fin cfg0.N) (b : Fin 8) (hb : b.val = win0_7.index t (0 : Fin 3)) (a : Fin 256) (n : Fin 2048) (r : Fin 2048) (hr : r.val = win0_7.index t (1 : Fin 3) * 256 + a.val) :
    iblk m c 2 t (ix3 0 a n) = V m c main_arg2 (ix3 b r n) := by
  have hf := OutCover.idx_facts t
  show V m c main_arg2 (((cfg0.win 2).blk t).view.emb (ix3 0 a n)) = _
  refine congrArg _ (funext fun x => Fin.ext ?_)
  match x with
  | ⟨0, _⟩ => show win0_2.index t (0 : Fin 3) * 1 + 1 * 0 = b.val; omega
  | ⟨1, _⟩ => show win0_2.index t (1 : Fin 3) * 256 + 1 * a.val = r.val; omega
  | ⟨2, _⟩ => show win0_2.index t (2 : Fin 3) * 2048 + 1 * n.val = n.val; omega

/-- The value rows of batch element `b`. -/
theorem blk_z (c : Dev nD) (t : Fin cfg0.N) (b : Fin 8) (hb : b.val = win0_7.index t (0 : Fin 3)) (n : Fin 2048) (v : Fin 257) :
    iblk m c 3 t (ix3 0 n v) = V m c main_arg0 (ix3 b n v) := by
  have hf := OutCover.idx_facts t
  show V m c main_arg0 (((cfg0.win 3).blk t).view.emb (ix3 0 n v)) = _
  refine congrArg _ (funext fun x => Fin.ext ?_)
  match x with
  | ⟨0, _⟩ => show win0_3.index t (0 : Fin 3) * 1 + 1 * 0 = b.val; omega
  | ⟨1, _⟩ => show win0_3.index t (1 : Fin 3) * 2048 + 1 * n.val = n.val; omega
  | ⟨2, _⟩ => show win0_3.index t (2 : Fin 3) * 257 + 1 * v.val = v.val; omega

/-- The three projections are staged whole. -/
theorem blk_wq (c : Dev nD) (t : Fin cfg0.N) (d : Fin 256) (k : Fin 64) : iblk m c 4 t (ix2 d k) = V m c main_arg3 (ix2 d k) := by
  have hf := OutCover.idx_facts t
  show V m c main_arg3 (((cfg0.win 4).blk t).view.emb (ix2 d k)) = _
  refine congrArg _ (funext fun x => Fin.ext ?_)
  match x with
  | ⟨0, _⟩ => show win0_4.index t (0 : Fin 2) * 256 + 1 * d.val = d.val; omega
  | ⟨1, _⟩ => show win0_4.index t (1 : Fin 2) * 64 + 1 * k.val = k.val; omega
theorem blk_wk (c : Dev nD) (t : Fin cfg0.N) (d : Fin 256) (k : Fin 64) : iblk m c 5 t (ix2 d k) = V m c main_arg4 (ix2 d k) := by
  have hf := OutCover.idx_facts t
  show V m c main_arg4 (((cfg0.win 5).blk t).view.emb (ix2 d k)) = _
  refine congrArg _ (funext fun x => Fin.ext ?_)
  match x with
  | ⟨0, _⟩ => show win0_5.index t (0 : Fin 2) * 256 + 1 * d.val = d.val; omega
  | ⟨1, _⟩ => show win0_5.index t (1 : Fin 2) * 64 + 1 * k.val = k.val; omega
theorem blk_wv (c : Dev nD) (t : Fin cfg0.N) (v : Fin 257) (w : Fin 257) : iblk m c 6 t (ix2 v w) = V m c main_arg5 (ix2 v w) := by
  have hf := OutCover.idx_facts t
  show V m c main_arg5 (((cfg0.win 6).blk t).view.emb (ix2 v w)) = _
  refine congrArg _ (funext fun x => Fin.ext ?_)
  match x with
  | ⟨0, _⟩ => show win0_6.index t (0 : Fin 2) * 257 + 1 * v.val = v.val; omega
  | ⟨1, _⟩ => show win0_6.index t (1 : Fin 2) * 257 + 1 * w.val = w.val; omega

/-! ## What a grid point writes back is its block of the reference's function -/

theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after_7]
  unfold outBlock
  rw [View.canon_unit_zero hz3]
  simp only [View.ld_unit_zero (S := S1x256x256) hz3, View.ld_unit_zero (S := S1x2048x256) hz3, View.ld_unit_zero (S := S1x256x2048) hz3,
    View.ld_unit_zero (S := S1x2048x257) hz3, View.ld_unit_zero (S := S256x64) hz2, View.ld_unit_zero (S := S257x257) hz2]
  have hf := OutCover.idx_facts t
  funext y
  have hy0 : (y 0).val < 1 := (y 0).isLt
  have hy1 : (y 1).val < 256 := (y 1).isLt
  have hy2 : (y 2).val < 257 := (y 2).isLt
  obtain ⟨b, hb⟩ : ∃ b : Fin 8, b.val = win0_7.index t (0 : Fin 3) := ⟨⟨win0_7.index t (0 : Fin 3), by omega⟩, rfl⟩
  obtain ⟨r, hr⟩ : ∃ r : Fin 2048, r.val = win0_7.index t (1 : Fin 3) * 256 + (y 1).val := ⟨⟨win0_7.index t (1 : Fin 3) * 256 + (y 1).val, by omega⟩, rfl⟩
  have hemb : ((cfg0.win 7).blk t).view.emb y = ix3 b r (y 2) := by
    funext x; apply Fin.ext
    match x with
    | ⟨0, _⟩ => show win0_7.index t (0 : Fin 3) * 1 + 1 * (y 0).val = b.val; omega
    | ⟨1, _⟩ => show win0_7.index t (1 : Fin 3) * 256 + 1 * (y 1).val = r.val; omega
    | ⟨2, _⟩ => show win0_7.index t (2 : Fin 3) * 257 + 1 * (y 2).val = (y 2).val; omega
  show k0_pay1 (k0_pay2 (iblk m c 0 t) (iblk m c 1 t) (iblk m c 4 t) (iblk m c 5 t) (iblk m c 6 t) (iblk m c 2 t) (iblk m c 3 t)) y
      = G m c (((cfg0.win 7).blk t).view.emb y)
  rw [hemb]
  refine (BodyValue.pay1_apply _ y).trans ?_
  refine (BodyValue.pay2_apply _ _ _ _ _ _ _ (y 1) (y 2)).trans ?_
  refine Eq.trans ?_ (Cert.ReferenceIdeal.RefValue.ref_apply _ _ _ _ _ _ b r (y 2)).symm
  refine Finset.sum_congr rfl fun v _ => ?_
  refine BodyValue.mul_congr ?_ (blk_wv m c t v (y 2))
  refine Finset.sum_congr rfl fun n _ => ?_
  refine BodyValue.mul_congr (BodyValue.mul_congr ?_ (blk_m m c t b hb (y 1) n r hr)) (blk_z m c t b hb n v)
  refine congrArg (fun x : EReal => max (x * Ideal.ofBits .f32 0x3E000000#32) (Ideal.ofBits .f32 0x00000000#32)) ?_
  refine Finset.sum_congr rfl fun k _ => ?_
  exact BodyValue.mul_congr (Finset.sum_congr rfl fun d _ => BodyValue.mul_congr (blk_q m c t b hb (y 1) d r hr) (blk_wq m c t d k))
    (Finset.sum_congr rfl fun d _ => BodyValue.mul_congr (blk_k m c t b hb n d) (blk_wk m c t d k))

/-! ## The array after the run -/

/-- The 64 tiles cover the result, so it ends at the reference's function of the arguments everywhere. -/
theorem final (c : Dev nD) : (dats m 0 c).arrAt 7 cfg0.N = G m c :=
  (dats m 0 c).arrAt_eq_of_cover 7 (G m c) (fun t _ => flushed_eq m c t) OutCover.cover

/-- The run, read: the result at the reference's function of the arguments as launched, the arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c 7).trans (final m c),
     (h c 3).trans (((dats m 0 c).arrAt_in 3 rfl _).trans (A_eq m c 3)),
     (h c 0).trans (((dats m 0 c).arrAt_in 0 rfl _).trans (A_eq m c 0)),
     (h c 2).trans (((dats m 0 c).arrAt_in 2 rfl _).trans (A_eq m c 2)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6))⟩) (run_main m ρ)

end Cert.KernelIdeal.KValue

end
-- ==== Proof.lean ====
/-
  The fused attention kernel against its reference, over the extended reals.

  Both programs compute, for each of 8 batch elements and each of 2048 query rows,
      out = ((relu((X Wq)(X Wk)ᵀ / 8) ∘ mask) Z) Wv
  — two projections of the token features X, their scaled and rectified inner products multiplied entry by entry
  by a mask, the weighted sum of the value rows Z, and a final projection. The kernel computes it one tile of 256
  query rows at a time, with all 2048 key rows of the batch element resident; the reference computes it whole.
  At the ideal values a change of float format is the identity and a matrix product is the finite sum of its
  products, so the two results are the same nested sums of the same numbers (`KValue.flushed_eq`): no
  rearrangement, and so no appeal to finiteness of the inputs. The scale 1/√64 is the exact dyadic 1/8 on both
  sides, the same word.

  The kernel reads the token features through two windows — the tile's query rows and the batch element's key
  rows are blocks of one array —, so its frame divides that array's share between them (`Fr.arrays_of_bufs`, over
  the launch for windows sharing an array). Nothing was rewritten when the kernel was idealized, so the
  idealization is the program's own text read at the ideal values.
-/
import proofs.«147705_j5583457485447_1_alg».proof.Defs
import proofs.«147705_j5583457485447_1_alg».proof.Proof.Gen.Kernel
import proofs.«147705_j5583457485447_1_alg».proof.Proof.Gen.KernelIdeal
import proofs.«147705_j5583457485447_1_alg».proof.Proof.Gen.ReferenceIdeal
import proofs.«147705_j5583457485447_1_alg».proof.Proof.Gen.Pre_finite_inputs
import proofs.«147705_j5583457485447_1_alg».proof.Proof.FrameBits
import proofs.«147705_j5583457485447_1_alg».proof.Proof.FrameIdeal
import proofs.«147705_j5583457485447_1_alg».proof.Proof.KernelValue
import proofs.«147705_j5583457485447_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_p [Cert.Kernel.Facts] [Cert.Pre_finite_inputs.Facts] : Cert.frame_Kernel := fun m ρ _ => Cert.Kernel.Fr.frame m ρ

/-- So does its reading at the ideal values. -/
theorem frame_pi [Cert.KernelIdeal.Facts] [Cert.Pre_finite_inputs.Facts] : Cert.frame_KernelIdeal := fun m ρ _ => Cert.KernelIdeal.Fr.frame m ρ

/-- The reference is a straight line of host operations: its run, with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's array ends at the
    reference's last stage of the arguments (`KValue.run`), and the reference's run ends at that stage of its own
    arguments, which are the same arrays. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
